-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S256 .f32) (main_arg7 : FVec F S256x1 .f32) (main_arg8 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg7
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : IVec S50000 32) (main_arg3 : FVec F S256x256 .f32) (main_arg4 : FVec F S256 .f32) (main_arg5 : FVec F S256x256 .f32) (main_arg6 : FVec F S256 .f32) (main_arg7 : FVec F S256x1 .f32) (main_arg8 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S5000x256 : Shape := ⟨2, ![5000, 256]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S64x256 : Shape := ⟨2, ![64, 256]⟩
abbrev S50000x1 : Shape := ⟨2, ![50000, 1]⟩
abbrev S64x1 : Shape := ⟨2, ![64, 1]⟩
abbrev S1x1 : Shape := ⟨2, ![1, 1]⟩

abbrev nBuf : Space → Nat
  | .hbm => 132
  | .vmem => 10
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S256x256, .f32⟩
  | 4 => ⟨S256, .f32⟩
  | 5 => ⟨S256x256, .f32⟩
  | 6 => ⟨S256, .f32⟩
  | 7 => ⟨S256x1, .f32⟩
  | 8 => ⟨S1, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S50000x256, .bf16⟩
  | 17 => ⟨S256x256, .bf16⟩
  | 18 => ⟨S50000x256, .f32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x256, .f32⟩
  | 57 => ⟨S850000x1, .f32⟩
  | 58 => ⟨S850000x256, .f32⟩
  | 59 => ⟨S850000x256, .f32⟩
  | 60 => ⟨S_, .f32⟩
  | 61 => ⟨S50000x256, .f32⟩
  | 62 => ⟨S850000x1, .i32⟩
  | 63 => ⟨S50000x256, .f32⟩
  | 64 => ⟨S1x256, .f32⟩
  | 65 => ⟨S50000x256, .f32⟩
  | 66 => ⟨S50000x256, .f32⟩
  | 67 => ⟨S_, .f32⟩
  | 68 => ⟨S50000x256, .f32⟩
  | 69 => ⟨S50000x256, .f32⟩
  | 70 => ⟨S50000x256, .bf16⟩
  | 71 => ⟨S256x256, .bf16⟩
  | 72 => ⟨S50000x256, .f32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .f32⟩
  | 82 => ⟨S50000, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x256, .f32⟩
  | 111 => ⟨S850000x1, .f32⟩
  | 112 => ⟨S850000x256, .f32⟩
  | 113 => ⟨S850000x256, .f32⟩
  | 114 => ⟨S_, .f32⟩
  | 115 => ⟨S50000x256, .f32⟩
  | 116 => ⟨S850000x1, .i32⟩
  | 117 => ⟨S50000x256, .f32⟩
  | 118 => ⟨S1x256, .f32⟩
  | 119 => ⟨S50000x256, .f32⟩
  | 120 => ⟨S50000x256, .f32⟩
  | 121 => ⟨S_, .f32⟩
  | 122 => ⟨S50000x256, .f32⟩
  | 123 => ⟨S50000x256, .f32⟩
  | 124 => ⟨S_, .f32⟩
  | 125 => ⟨S64x256, .f32⟩
  | 126 => ⟨S50000x1, .i32⟩
  | 127 => ⟨S64x256, .f32⟩
  | _ => ⟨S50000x256, .f32⟩

abbrev hbmTy0_1 (i : Nat) : BufTy := match i % 128 with
  | 0 => ⟨S64x1, .f32⟩
  | 1 => ⟨S1x1, .f32⟩
  | 2 => ⟨S64x1, .f32⟩
  | 3 => ⟨S64x1, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .bf16⟩
  | .local _ .vmem, ⟨1, _⟩ => ⟨S5000x256, .bf16⟩
  | .local _ .vmem, ⟨2, _⟩ => ⟨S256x256, .bf16⟩
  | .local _ .vmem, ⟨3, _⟩ => ⟨S5000x256, .f32⟩
  | .local _ .vmem, ⟨4, _⟩ => ⟨S5000x256, .f32⟩
  | .local _ .vmem, ⟨5, _⟩ => ⟨S5000x256, .bf16⟩
  | .local _ .vmem, ⟨6, _⟩ => ⟨S5000x256, .bf16⟩
  | .local _ .vmem, ⟨7, _⟩ => ⟨S256x256, .bf16⟩
  | .local _ .vmem, ⟨8, _⟩ => ⟨S5000x256, .f32⟩
  | .local _ .vmem, ⟨9, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_15 : Ref sig .tc := ⟨.hbm, 102, rfl⟩
abbrev main_v74 : Ref sig .tc := ⟨.hbm, 103, rfl⟩
abbrev main_v75 : Ref sig .tc := ⟨.hbm, 104, rfl⟩
abbrev main_c_16 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_call1_cst : Ref sig .tc := ⟨.hbm, 121, rfl⟩
abbrev main_call1_v0 : Ref sig .tc := ⟨.hbm, 122, rfl⟩
abbrev main_v90 : Ref sig .tc := ⟨.hbm, 123, rfl⟩
abbrev main_cst_18 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S5000x256_S256x256_S5000x256_1_0_0_1_n_n_wf : DotDims.WF S5000x256 S256x256 S5000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S64x256_S50000x1_S50000x256_1_0_0_1_wf : ScatterDims.WF S64x256 S50000x1 S50000x256 [1] [0] [0] 1
  dot_S64x256_S256x1_S64x1_1_0_0_1_n_n_wf : DotDims.WF S64x256 S256x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .bf16 = 32 ∨ (Rect.block (s := S50000x256) S5000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .bf16 = 32 ∨ (Rect.block (s := S50000x256) S5000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

abbrev win0_0 : Pipeline.Window sig grid0 :=
  Pipeline.Window.ofSpec (Memref.whole main_v7) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S64x256 : Shape := ⟨2, ![64, 256]⟩
abbrev S50000x1 : Shape := ⟨2, ![50000, 1]⟩
abbrev S64x1 : Shape := ⟨2, ![64, 1]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x256, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x256, .f32⟩
  | .hbm, ⟨55, _⟩ => ⟨S850000x1, .f32⟩
  | .hbm, ⟨56, _⟩ => ⟨S850000x256, .f32⟩
  | .hbm, ⟨57, _⟩ => ⟨S850000x256, .f32⟩
  | .hbm, ⟨58, _⟩ => ⟨S_, .f32⟩
  | .hbm, ⟨59, _⟩ => ⟨S50000x256, .f32⟩
  | .hbm, ⟨60, _⟩ => ⟨S850000x1, .i32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S_, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S850000, .f32⟩
  | .hbm, ⟨70, _⟩ => ⟨S_, .f32⟩
  | .hbm, ⟨71, _⟩ => ⟨S50000, .f32⟩
  | .hbm, ⟨72, _⟩ => ⟨S850000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S850000, .f32⟩
  | .hbm, ⟨97, _⟩ => ⟨S50000x256, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x256, .f32⟩
  | .hbm, ⟨107, _⟩ => ⟨S850000x1, .f32⟩
  | .hbm, ⟨108, _⟩ => ⟨S850000x256, .f32⟩
  | .hbm, ⟨109, _⟩ => ⟨S850000x256, .f32⟩
  | .hbm, ⟨110, _⟩ => ⟨S_, .f32⟩
  | .hbm, ⟨111, _⟩ => ⟨S50000x256, .f32⟩
  | .hbm, ⟨112, _⟩ => ⟨S850000x1, .i32⟩
  | .hbm, ⟨113, _⟩ => ⟨S50000x256, .f32⟩
  | .hbm, ⟨114, _⟩ => ⟨S1x256, .f32⟩
  | .hbm, ⟨115, _⟩ => ⟨S50000x256, .f32⟩
  | .hbm, ⟨116, _⟩ => ⟨S50000x256, .f32⟩
  | .hbm, ⟨117, _⟩ => ⟨S_, .f32⟩
  | .hbm, ⟨118, _⟩ => ⟨S50000x256, .f32⟩
  | .hbm, ⟨119, _⟩ => ⟨S50000x256, .f32⟩
  | .hbm, ⟨120, _⟩ => ⟨S_, .f32⟩
  | .hbm, ⟨121, _⟩ => ⟨S64x256, .f32⟩
  | .hbm, ⟨122, _⟩ => ⟨S50000x1, .i32⟩
  | .hbm, ⟨123, _⟩ => ⟨S64x256, .f32⟩
  | .hbm, ⟨124, _⟩ => ⟨S64x1, .f32⟩
  | .hbm, ⟨125, _⟩ => ⟨S1x1, .f32⟩
  | .hbm, ⟨126, _⟩ => ⟨S64x1, .f32⟩
  | .hbm, ⟨127, _⟩ => ⟨S64x1, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_15 : Ref sig .tc := ⟨.hbm, 98, rfl⟩
abbrev main_v70 : Ref sig .tc := ⟨.hbm, 99, rfl⟩
abbrev main_v71 : Ref sig .tc := ⟨.hbm, 100, rfl⟩
abbrev main_c_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_call1_cst : Ref sig .tc := ⟨.hbm, 117, rfl⟩
abbrev main_call1_v0 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S64x256_S50000x1_S50000x256_1_0_0_1_wf : ScatterDims.WF S64x256 S50000x1 S50000x256 [1] [0] [0] 1
  dot_S64x256_S256x1_S64x1_1_0_0_1_n_n_wf : DotDims.WF S64x256 S256x1 S64x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

class Facts : Prop extends Facts₀ where

variable [Facts]
-- ==== Proof.KernelRun.lean ====
/-
  The idealized kernel program's run with its result named.

  The program is nine stretches: host operations, the first pallas call, host operations (three stretches), the second
  pallas call, host operations (three stretches). Every weakly fair execution terminates without a fault, and every
  buffer no scope hides ends at the last boundary's contents `W9`: in particular the program's result `main_v97`,
  and each argument, which nothing writes.
-/
import proofs.«108624_j10557029614292_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with
    the result buffer at the last boundary's contents and the argument arrays as launched. -/
theorem run : θ_run defs (onTc (τ := τ) (main (F := F))) ⟨m, fun _ => 0, ρ⟩ (fun r => ∀ c : Dev nD,
      r.2.mem ((c.tc : Thread nD τ).loc main_v97) = W9 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v97 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Whole

end
-- ==== Proof.BlockProduct.lean ====
/-
  The dense product inside each of the two pallas calls, over the extended reals.

  Each call multiplies a 50000 x 256 table by a 256 x 256 matrix in ten row blocks of 5000: grid point `t` loads rows
  5000 t .. 5000 t + 4999 of the table and the whole matrix, and stores their product (a matrix product accumulated
  from zero) as rows 5000 t .. 5000 t + 4999 of the result. Entry (r, q) of a block's product is the sum over k < 256
  of table (5000 t + r, k) * matrix (k, q): it depends on row 5000 t + r of the table and column q of the matrix only,
  so every block is the restriction of ONE function of the two arrays, `tableTimes`, and since the ten blocks cover the
  50000 rows the result array is that function. Nothing here needs the entries to be finite: both sides are the same
  sum of the same products.
-/
import proofs.«108624_j10557029614292_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.NodeProduct

open Cert.KernelIdeal Cert.KernelIdeal.Gen Idealize.ShloMosaic Idealize.ShloMosaic.TcCoe Idealize.SL.Sem
open Idealize.ShloMosaic.Pipeline (Dat)

/-! ## The product as one function of the two arrays -/

/-- Entry (i 0, k) of the table. -/
abbrev tableRow (i : S50000x256.Idx) (k : Fin 256) : S50000x256.Idx := fun a => match a with
  | ⟨0, _⟩ => ⟨(i 0).val, (i 0).isLt⟩
  | ⟨1, _⟩ => ⟨k.val, k.isLt⟩
/-- Entry (k, i 1) of the matrix. -/
abbrev tableCol (i : S50000x256.Idx) (k : Fin 256) : S256x256.Idx := fun a => match a with
  | ⟨0, _⟩ => ⟨k.val, k.isLt⟩
  | ⟨1, _⟩ => ⟨(i 1).val, (i 1).isLt⟩

/-- The product of a 50000 x 256 table `A` with a 256 x 256 matrix `B`: entry (n, q) is Σ_k A (n, k) · B (k, q). -/
def tableTimes (A : S50000x256.Idx → EReal) (B : S256x256.Idx → EReal) : S50000x256.Idx → EReal :=
  fun i => ∑ k : Fin 256, A (tableRow i k) * B (tableCol i k)

/-! ## One block's product at an entry -/

/-- Entry (j 0, k) of a block of 5000 rows. -/
abbrev blockRow (j : S5000x256.Idx) (k : Fin 256) : S5000x256.Idx := fun a => match a with
  | ⟨0, _⟩ => ⟨(j 0).val, (j 0).isLt⟩
  | ⟨1, _⟩ => ⟨k.val, k.isLt⟩
/-- Entry (k, j 1) of the matrix, for an entry `j` of a block. -/
abbrev blockCol (j : S5000x256.Idx) (k : Fin 256) : S256x256.Idx := fun a => match a with
  | ⟨0, _⟩ => ⟨k.val, k.isLt⟩
  | ⟨1, _⟩ => ⟨(j 1).val, (j 1).isLt⟩

theorem origin : (![0, 0] : Fin 2 → Nat) = fun _ => 0 := funext fun a => by fin_cases a <;> rfl

/-- The block product's left index keeps the result's row … -/
theorem left_row (j : S5000x256.Idx) (q : dot_S5000x256_S256x256_S5000x256_1_0_0_1_n_n.contr.Idx) :
    (dot_S5000x256_S256x256_S5000x256_1_0_0_1_n_n.lhsIdx j q 0).val = (j 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- … and runs over the contracted coordinate on its columns; -/
theorem left_col (j : S5000x256.Idx) (q : dot_S5000x256_S256x256_S5000x256_1_0_0_1_n_n.contr.Idx) :
    (dot_S5000x256_S256x256_S5000x256_1_0_0_1_n_n.lhsIdx j q 1).val = (q ⟨0, by decide⟩).val :=
  dot_S5000x256_S256x256_S5000x256_1_0_0_1_n_n.lhsIdx_val_of_single rfl j q
/-- the right index runs over the contracted coordinate on its rows … -/
theorem right_row (j : S5000x256.Idx) (q : dot_S5000x256_S256x256_S5000x256_1_0_0_1_n_n.contr.Idx) :
    (dot_S5000x256_S256x256_S5000x256_1_0_0_1_n_n.rhsIdx j q 0).val = (q ⟨0, by decide⟩).val :=
  dot_S5000x256_S256x256_S5000x256_1_0_0_1_n_n.rhsIdx_val_of_single rfl j q
/-- … and keeps the result's column. -/
theorem right_col (j : S5000x256.Idx) (q : dot_S5000x256_S256x256_S5000x256_1_0_0_1_n_n.contr.Idx) :
    (dot_S5000x256_S256x256_S5000x256_1_0_0_1_n_n.rhsIdx j q 1).val = (j 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- A matrix product accumulated from zero, at an entry of the block: the sum over k < 256 of the products. -/
theorem block_sum (x0 : FVec Ideal S5000x256 .bf16) (x1 : FVec Ideal S256x256 .bf16) (j : S5000x256.Idx) :
    matmul (F := Ideal) dot_S5000x256_S256x256_S5000x256_1_0_0_1_n_n none x0 x1 (constant S5000x256 .f32 0x00000000#32) j
      = ∑ k : Fin 256, x0 (blockRow j k) * x1 (blockCol j k) := by
  refine (Ideal.matmul_constant_zero_apply dot_S5000x256_S256x256_S5000x256_1_0_0_1_n_n none x0 x1 j).trans ?_
  rw [← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx j ((ValueIdx.contrEquiv1 dot_S5000x256_S256x256_S5000x256_1_0_0_1_n_n 256 rfl rfl).symm k) = blockRow j k := funext fun a => Fin.ext (by
    match a with
    | ⟨0, _⟩ => exact left_row _ _
    | ⟨1, _⟩ => exact (left_col _ _).trans hk)
  have er : dot_S5000x256_S256x256_S5000x256_1_0_0_1_n_n.rhsIdx j ((ValueIdx.contrEquiv1 dot_S5000x256_S256x256_S5000x256_1_0_0_1_n_n 256 rfl rfl).symm k) = blockCol j k := funext fun a => Fin.ext (by
    match a with
    | ⟨0, _⟩ => exact (right_row _ _).trans hk
    | ⟨1, _⟩ => exact right_col _ _)
  rw [el, er]

/-- The body's stored value at an entry `j` of the block is the entry `i` of the whole product, when row `j 0` of the loaded
    table block is row `i 0` of the table and column `j 1` of the loaded matrix is column `i 1` of the matrix. (The two
    calls' bodies are the same term.) -/
theorem block_entry (x0 : Vec Ideal S5000x256 .bf16) (x1 : Vec Ideal S256x256 .bf16)
    (A : S50000x256.Idx → EReal) (B : S256x256.Idx → EReal) (j : S5000x256.Idx) (i : S50000x256.Idx)
    (h0 : ∀ k : Fin 256, x0 (blockRow j k) = A (tableRow i k)) (h1 : ∀ k : Fin 256, x1 (blockCol j k) = B (tableCol i k)) :
    k0_pay1 (F := Ideal) x0 x1 j = tableTimes A B i := by
  unfold k0_pay1
  rw [shapeCast_self, shapeCast_self]
  refine (block_sum x0 x1 j).trans ?_
  exact Finset.sum_congr rfl fun k _ => by rw [h0 k, h1 k]

/-- The second call's body is the first's. -/
theorem second_body (x0 : Vec Ideal S5000x256 .bf16) (x1 : Vec Ideal S256x256 .bf16) :
    k1_pay1 (F := Ideal) x0 x1 = k0_pay1 (F := Ideal) x0 x1 := rfl

/-! ## Pallas call 0: rows of `main_v7` against `main_v8`, written to `main_v9` -/

/-- How the three windows move over the ten grid points: the row blocks of the left operand and of the result move
    together, one block of 5000 rows per point; the right operand's single block and the column blocks stay at 0. -/
theorem windows0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every block of 5000 rows of the result is some grid point's. -/
theorem blocks_onto0 : ∀ (q0 : Fin 10) (q1 : Fin 1), ∃ t : Fin cfg0.N, win0_2.index t = ![q0.val, q1.val] :=
  (by decide +kernel : ∀ (q0 : Fin 10) (q1 : Fin 1), ∃ t : Fin grid0.N, win0_2.index t = ![q0.val, q1.val])

/-- What grid point `t` writes back is block `t` of the whole product of the two arrays the call was entered with. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (tableTimes (V c main_v7) (V c main_v8)) := by
  show (cfg0.win 2).cut (grid0.coords t) ((dat0 (F := Ideal) V c).after 2 t) = _
  rw [after0_2]
  unfold out0_2
  rw [View.canon_unit_zero origin]
  simp only [View.ld_unit_zero (S := S5000x256) origin, View.ld_unit_zero (S := S256x256) origin]
  obtain ⟨e0, e1, e2, e3, e4⟩ := windows0 t
  funext j
  refine block_entry (iblk0 V c 0 t) (iblk0 V c 1 t) (V c main_v7) (V c main_v8) j (((cfg0.win 2).blk t).view.emb j) (fun k => ?_) (fun k => ?_)
  · show V c main_v7 (((cfg0.win 0).blk t).view.emb (blockRow j k)) = V c main_v7 (tableRow (((cfg0.win 2).blk t).view.emb j) k)
    refine congrArg (V c main_v7) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · show V c main_v8 (((cfg0.win 1).blk t).view.emb (blockCol j k)) = V c main_v8 (tableCol (((cfg0.win 2).blk t).view.emb j) k)
    refine congrArg (V c main_v8) (funext fun a => Fin.ext ?_)
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega

/-- An entry of the result array lies in point `t`'s block iff each coordinate is in the block's range. -/
theorem mem_block0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v9).slice (win0_2.rect t)).set ↔ _
  rw [View.set_slice_whole, Rect.mem_set_unit]
  exact Iff.rfl

/-- The ten blocks of 5000 rows cover all 50000 rows: row `r` is in the block of point `r / 5000`. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := blocks_onto0 ⟨(i 0).val / 5000, by omega⟩ ⟨(i 1).val / 256, by omega⟩
  have q0 : win0_2.index t (0 : Fin 2) = (i 0).val / 5000 := congrFun ht 0
  have q1 : win0_2.index t (1 : Fin 2) = (i 1).val / 256 := congrFun ht 1
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- After the call its result array holds the whole product of the two arrays it was entered with. -/
theorem product0 (V : (c : Dev nD) → (b : Ref sig .tc) → Buf (Elt Ideal) ((c : Thread nD τ).loc b)) (c : Dev nD) :
    (dat0 (F := Ideal) V c).arrAt 2 cfg0.N = tableTimes (V c main_v7) (V c main_v8) :=
  (dat0 (F := Ideal) V c).arrAt_eq_of_cover 2 (tableTimes (V c main_v7) (V c main_v8)) (fun t _ => flushed0_eq V c t) cover0

/-! ## Pallas call 1: rows of `main_v49` against `main_v50`, written to `main_v51` -/

/-- How the three windows move over the ten grid points: the row blocks of the left operand and of the result move
    together, one block of 5000 rows per point; the right operand's single block and the column blocks stay at 0. -/
theorem windows1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

/-- Every block of 5000 rows of the result is some grid point's. -/
theorem blocks_onto1 : ∀ (q0 : Fin 10) (q1 : Fin 1), ∃ t : Fin cfg1.N, win1_2.index t = ![q0.val, q1.val] :=
  (by decide +kernel : ∀ (q0 : Fin 10) (q1 : Fin 1), ∃ t : Fin grid1.N, win1_2.index t = ![q0.val, q1.val])

/-- What grid point `t` writes back is block `t` of the whole product of the two arrays the call was entered with. -/
theorem flushed1_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (tableTimes (V c main_v49) (V c main_v50)) := by
  show (cfg1.win 2).cut (grid1.coords t) ((dat1 (F := Ideal) V c).after 2 t) = _
  rw [after1_2]
  unfold out1_2
  rw [View.canon_unit_zero origin]
  simp only [View.ld_unit_zero (S := S5000x256) origin, View.ld_unit_zero (S := S256x256) origin]
  obtain ⟨e0, e1, e2, e3, e4⟩ := windows1 t
  funext j
  refine block_entry (iblk1 V c 0 t) (iblk1 V c 1 t) (V c main_v49) (V c main_v50) j (((cfg1.win 2).blk t).view.emb j) (fun k => ?_) (fun k => ?_)
  · show V c main_v49 (((cfg1.win 0).blk t).view.emb (blockRow j k)) = V c main_v49 (tableRow (((cfg1.win 2).blk t).view.emb j) k)
    refine congrArg (V c main_v49) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * k.val = k.val; omega
  · show V c main_v50 (((cfg1.win 1).blk t).view.emb (blockCol j k)) = V c main_v50 (tableCol (((cfg1.win 2).blk t).view.emb j) k)
    refine congrArg (V c main_v50) (funext fun a => Fin.ext ?_)
    match a with
    | ⟨0, _⟩ => show win1_1.index t (0 : Fin 2) * 256 + 1 * k.val = k.val; omega
    | ⟨1, _⟩ => show win1_1.index t (1 : Fin 2) * 256 + 1 * (j 1).val = win1_2.index t (1 : Fin 2) * 256 + 1 * (j 1).val; omega

/-- An entry of the result array lies in point `t`'s block iff each coordinate is in the block's range. -/
theorem mem_block1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v51).slice (win1_2.rect t)).set ↔ _
  rw [View.set_slice_whole, Rect.mem_set_unit]
  exact Iff.rfl

/-- The ten blocks of 5000 rows cover all 50000 rows: row `r` is in the block of point `r / 5000`. -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := blocks_onto1 ⟨(i 0).val / 5000, by omega⟩ ⟨(i 1).val / 256, by omega⟩
  have q0 : win1_2.index t (0 : Fin 2) = (i 0).val / 5000 := congrFun ht 0
  have q1 : win1_2.index t (1 : Fin 2) = (i 1).val / 256 := congrFun ht 1
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- After the call its result array holds the whole product of the two arrays it was entered with. -/
theorem product1 (V : (c : Dev nD) → (b : Ref sig .tc) → Buf (Elt Ideal) ((c : Thread nD τ).loc b)) (c : Dev nD) :
    (dat1 (F := Ideal) V c).arrAt 2 cfg1.N = tableTimes (V c main_v49) (V c main_v50) :=
  (dat1 (F := Ideal) V c).arrAt_eq_of_cover 2 (tableTimes (V c main_v49) (V c main_v50)) (fun t _ => flushed1_eq V c t) cover1

end Cert.KernelIdeal.NodeProduct

end
-- ==== Proof.Untouched.lean ====
/-
  Buffers that a stretch of the kernel program does not write keep their contents across it.

  The edge lists (senders `main_v3`, receivers `main_v6`) are computed once, before the first pallas call, and read
  again after each call; the second layer's weights and bias, the graph assignment and the head's weights are arguments
  read only late in the program. Each is followed here from the boundary where it is read back to where it was made:
  no host operation in between has it as its result, and neither pallas call has it among its three arrays.
-/
import proofs.«108624_j10557029614292_1_alg».proof.Proof.Gen.KernelIdeal.Frame

set_option maxRecDepth 16384

noncomputable section

namespace Cert.KernelIdeal.Untouched

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- A buffer that is the result of none of a stretch's operations holds after the stretch what it held before. -/
local macro "unwritten " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## Arguments read after the first call still hold their launch contents when it returns -/

theorem launch_main_arg2 : W2 m ρ c (Proc.devRef .tc main_arg2) = m ((c : Thread nD τ).loc main_arg2) :=
  (W2_of_ne m ρ c main_arg2 (by decide)).trans
    ((by unwritten hostOps0 : W1 m ρ c (Proc.devRef .tc main_arg2) = W0 m ρ c (Proc.devRef .tc main_arg2)).trans rfl)
theorem launch_main_arg4 : W2 m ρ c (Proc.devRef .tc main_arg4) = m ((c : Thread nD τ).loc main_arg4) :=
  (W2_of_ne m ρ c main_arg4 (by decide)).trans
    ((by unwritten hostOps0 : W1 m ρ c (Proc.devRef .tc main_arg4) = W0 m ρ c (Proc.devRef .tc main_arg4)).trans rfl)
theorem launch_main_arg5 : W2 m ρ c (Proc.devRef .tc main_arg5) = m ((c : Thread nD τ).loc main_arg5) :=
  (W2_of_ne m ρ c main_arg5 (by decide)).trans
    ((by unwritten hostOps0 : W1 m ρ c (Proc.devRef .tc main_arg5) = W0 m ρ c (Proc.devRef .tc main_arg5)).trans rfl)
theorem launch_main_arg6 : W2 m ρ c (Proc.devRef .tc main_arg6) = m ((c : Thread nD τ).loc main_arg6) :=
  (W2_of_ne m ρ c main_arg6 (by decide)).trans
    ((by unwritten hostOps0 : W1 m ρ c (Proc.devRef .tc main_arg6) = W0 m ρ c (Proc.devRef .tc main_arg6)).trans rfl)
theorem launch_main_arg7 : W2 m ρ c (Proc.devRef .tc main_arg7) = m ((c : Thread nD τ).loc main_arg7) :=
  (W2_of_ne m ρ c main_arg7 (by decide)).trans
    ((by unwritten hostOps0 : W1 m ρ c (Proc.devRef .tc main_arg7) = W0 m ρ c (Proc.devRef .tc main_arg7)).trans rfl)
theorem launch_main_arg8 : W2 m ρ c (Proc.devRef .tc main_arg8) = m ((c : Thread nD τ).loc main_arg8) :=
  (W2_of_ne m ρ c main_arg8 (by decide)).trans
    ((by unwritten hostOps0 : W1 m ρ c (Proc.devRef .tc main_arg8) = W0 m ρ c (Proc.devRef .tc main_arg8)).trans rfl)

/-! ## The edge lists are not touched by the first call -/

theorem early_main_v3 : W2 m ρ c (Proc.devRef .tc main_v3) = W1 m ρ c (Proc.devRef .tc main_v3) := W2_of_ne m ρ c main_v3 (by decide)
theorem early_main_v6 : W2 m ρ c (Proc.devRef .tc main_v6) = W1 m ρ c (Proc.devRef .tc main_v6) := W2_of_ne m ρ c main_v6 (by decide)

/-! ## Across the first layer's host operations -/

theorem mid_main_v3 : W5 m ρ c (Proc.devRef .tc main_v3) = W2 m ρ c (Proc.devRef .tc main_v3) :=
  (by unwritten hostOps1_2 : W5 m ρ c (Proc.devRef .tc main_v3) = W4 m ρ c (Proc.devRef .tc main_v3)).trans
    ((by unwritten hostOps1_1 : W4 m ρ c (Proc.devRef .tc main_v3) = W3 m ρ c (Proc.devRef .tc main_v3)).trans
      (by unwritten hostOps1 : W3 m ρ c (Proc.devRef .tc main_v3) = W2 m ρ c (Proc.devRef .tc main_v3)))
theorem mid_main_v6 : W5 m ρ c (Proc.devRef .tc main_v6) = W2 m ρ c (Proc.devRef .tc main_v6) :=
  (by unwritten hostOps1_2 : W5 m ρ c (Proc.devRef .tc main_v6) = W4 m ρ c (Proc.devRef .tc main_v6)).trans
    ((by unwritten hostOps1_1 : W4 m ρ c (Proc.devRef .tc main_v6) = W3 m ρ c (Proc.devRef .tc main_v6)).trans
      (by unwritten hostOps1 : W3 m ρ c (Proc.devRef .tc main_v6) = W2 m ρ c (Proc.devRef .tc main_v6)))
theorem mid_main_arg2 : W5 m ρ c (Proc.devRef .tc main_arg2) = W2 m ρ c (Proc.devRef .tc main_arg2) :=
  (by unwritten hostOps1_2 : W5 m ρ c (Proc.devRef .tc main_arg2) = W4 m ρ c (Proc.devRef .tc main_arg2)).trans
    ((by unwritten hostOps1_1 : W4 m ρ c (Proc.devRef .tc main_arg2) = W3 m ρ c (Proc.devRef .tc main_arg2)).trans
      (by unwritten hostOps1 : W3 m ρ c (Proc.devRef .tc main_arg2) = W2 m ρ c (Proc.devRef .tc main_arg2)))
theorem mid_main_arg6 : W5 m ρ c (Proc.devRef .tc main_arg6) = W2 m ρ c (Proc.devRef .tc main_arg6) :=
  (by unwritten hostOps1_2 : W5 m ρ c (Proc.devRef .tc main_arg6) = W4 m ρ c (Proc.devRef .tc main_arg6)).trans
    ((by unwritten hostOps1_1 : W4 m ρ c (Proc.devRef .tc main_arg6) = W3 m ρ c (Proc.devRef .tc main_arg6)).trans
      (by unwritten hostOps1 : W3 m ρ c (Proc.devRef .tc main_arg6) = W2 m ρ c (Proc.devRef .tc main_arg6)))
theorem mid_main_arg7 : W5 m ρ c (Proc.devRef .tc main_arg7) = W2 m ρ c (Proc.devRef .tc main_arg7) :=
  (by unwritten hostOps1_2 : W5 m ρ c (Proc.devRef .tc main_arg7) = W4 m ρ c (Proc.devRef .tc main_arg7)).trans
    ((by unwritten hostOps1_1 : W4 m ρ c (Proc.devRef .tc main_arg7) = W3 m ρ c (Proc.devRef .tc main_arg7)).trans
      (by unwritten hostOps1 : W3 m ρ c (Proc.devRef .tc main_arg7) = W2 m ρ c (Proc.devRef .tc main_arg7)))
theorem mid_main_arg8 : W5 m ρ c (Proc.devRef .tc main_arg8) = W2 m ρ c (Proc.devRef .tc main_arg8) :=
  (by unwritten hostOps1_2 : W5 m ρ c (Proc.devRef .tc main_arg8) = W4 m ρ c (Proc.devRef .tc main_arg8)).trans
    ((by unwritten hostOps1_1 : W4 m ρ c (Proc.devRef .tc main_arg8) = W3 m ρ c (Proc.devRef .tc main_arg8)).trans
      (by unwritten hostOps1 : W3 m ρ c (Proc.devRef .tc main_arg8) = W2 m ρ c (Proc.devRef .tc main_arg8)))
theorem mid_main_arg5 : W4 m ρ c (Proc.devRef .tc main_arg5) = W2 m ρ c (Proc.devRef .tc main_arg5) :=
  (by unwritten hostOps1_1 : W4 m ρ c (Proc.devRef .tc main_arg5) = W3 m ρ c (Proc.devRef .tc main_arg5)).trans
    (by unwritten hostOps1 : W3 m ρ c (Proc.devRef .tc main_arg5) = W2 m ρ c (Proc.devRef .tc main_arg5))

/-! ## Across the second call -/

theorem late_main_v3 : W6 m ρ c (Proc.devRef .tc main_v3) = W5 m ρ c (Proc.devRef .tc main_v3) :=
  W6_of_ne m ρ c main_v3 (by decide)
theorem late_main_v6 : W6 m ρ c (Proc.devRef .tc main_v6) = W5 m ρ c (Proc.devRef .tc main_v6) :=
  W6_of_ne m ρ c main_v6 (by decide)
theorem late_main_arg2 : W6 m ρ c (Proc.devRef .tc main_arg2) = W5 m ρ c (Proc.devRef .tc main_arg2) :=
  W6_of_ne m ρ c main_arg2 (by decide)
theorem late_main_arg6 : W6 m ρ c (Proc.devRef .tc main_arg6) = W5 m ρ c (Proc.devRef .tc main_arg6) :=
  W6_of_ne m ρ c main_arg6 (by decide)
theorem late_main_arg7 : W6 m ρ c (Proc.devRef .tc main_arg7) = W5 m ρ c (Proc.devRef .tc main_arg7) :=
  W6_of_ne m ρ c main_arg7 (by decide)
theorem late_main_arg8 : W6 m ρ c (Proc.devRef .tc main_arg8) = W5 m ρ c (Proc.devRef .tc main_arg8) :=
  W6_of_ne m ρ c main_arg8 (by decide)

/-! ## Across the second layer's host operations, for what only the head reads -/

theorem tail_main_arg2 : W8 m ρ c (Proc.devRef .tc main_arg2) = W6 m ρ c (Proc.devRef .tc main_arg2) :=
  (by unwritten hostOps2_1 : W8 m ρ c (Proc.devRef .tc main_arg2) = W7 m ρ c (Proc.devRef .tc main_arg2)).trans
    (by unwritten hostOps2 : W7 m ρ c (Proc.devRef .tc main_arg2) = W6 m ρ c (Proc.devRef .tc main_arg2))
theorem tail_main_arg7 : W8 m ρ c (Proc.devRef .tc main_arg7) = W6 m ρ c (Proc.devRef .tc main_arg7) :=
  (by unwritten hostOps2_1 : W8 m ρ c (Proc.devRef .tc main_arg7) = W7 m ρ c (Proc.devRef .tc main_arg7)).trans
    (by unwritten hostOps2 : W7 m ρ c (Proc.devRef .tc main_arg7) = W6 m ρ c (Proc.devRef .tc main_arg7))
theorem tail_main_arg8 : W8 m ρ c (Proc.devRef .tc main_arg8) = W6 m ρ c (Proc.devRef .tc main_arg8) :=
  (by unwritten hostOps2_1 : W8 m ρ c (Proc.devRef .tc main_arg8) = W7 m ρ c (Proc.devRef .tc main_arg8)).trans
    (by unwritten hostOps2 : W7 m ρ c (Proc.devRef .tc main_arg8) = W6 m ρ c (Proc.devRef .tc main_arg8))

end Cert.KernelIdeal.Untouched

end
-- ==== Proof.Stretches.lean ====
/-
  The short stretches of the kernel program's host operations, against the reference's stages.

  Both programs build the same graph convolution around their dense products: senders and receivers (the edge list
  with one self loop per node appended), degrees by a scatter-add of ones over the receivers, the symmetric weights
  rsqrt(max(deg, 1e-12)) gathered at both ends of every edge and multiplied, the product table's rows gathered at the
  senders, scaled, scatter-added at the receivers, the bias added, and the maximum with zero; after the second layer
  the rows are summed per graph, multiplied by the head's weights and shifted by its bias. The kernel program prints
  these operations in its own order, with the two dense products replaced by pallas calls whose operands it first
  narrows to bf16; over the extended reals the narrowing is the identity. Here: the edge lists, the narrowings, the
  two maxima with zero, and the head. The two long aggregations have a module each.
-/
import proofs.«108624_j10557029614292_1_alg».proof.Proof.Gen.KernelIdeal.Launch
import proofs.«108624_j10557029614292_1_alg».proof.Proof.Gen.ReferenceIdeal.Read
import Idealize.ShloMosaic.Lib.StableHlo.Run

set_option maxRecDepth 16384

noncomputable section

namespace Cert.KernelIdeal.HostStretches

open Cert.KernelIdeal Cert.KernelIdeal.Gen Idealize.ShloMosaic Idealize.ShloMosaic.TcCoe Idealize.SL.Sem Idealize.ShloMosaic.StableHlo
open Cert.ReferenceIdeal.Read (val_main_v3 val_main_v6 val_main_v86 val_main_v93)

variable (Vin : Valuation τ sig (Elt Ideal))

/-! ## Before the first call: the edge lists, and the first product's operands -/

/-- The senders: the edge list's first row with the nodes' own numbers appended. -/
theorem senders : StableHlo.after hostOps0 Vin (Proc.devRef .tc main_v3) = val_main_v3 (F := Ideal) (Vin (Proc.devRef .tc main_arg1)) := by
  after_results; rfl

/-- The receivers: the edge list's second row with the nodes' own numbers appended. -/
theorem receivers : StableHlo.after hostOps0 Vin (Proc.devRef .tc main_v6) = val_main_v6 (F := Ideal) (Vin (Proc.devRef .tc main_arg1)) := by
  after_results; rfl

/-- The node features narrowed to bf16 are, over the extended reals, the node features. -/
theorem narrowed_features : (StableHlo.after hostOps0 Vin (Proc.devRef .tc main_v7) : S50000x256.Idx → EReal) = Vin (Proc.devRef .tc main_arg0) := by
  after_results; rfl

/-- The first layer's weights narrowed to bf16 are, over the extended reals, the weights. -/
theorem narrowed_weights1 : (StableHlo.after hostOps0 Vin (Proc.devRef .tc main_v8) : S256x256.Idx → EReal) = Vin (Proc.devRef .tc main_arg3) := by
  after_results; rfl

/-! ## Between the calls -/

/-- The table of zeros a maximum with zero compares against. -/
abbrev zeroTable : FVec Ideal S50000x256 .f32 := broadcastInDim S50000x256 ![] bcast_S_S50000x256 (constant S_ .f32 0x00000000#32)

/-- The first layer ends with the maximum of its aggregate and zero, entry by entry. -/
theorem relu_first : StableHlo.after hostOps1_1 Vin (Proc.devRef .tc main_v48)
    = maximumf (Vin (Proc.devRef .tc main_v47) : FVec Ideal S50000x256 .f32) zeroTable := by
  after_results; rfl

/-- The first layer's output narrowed to bf16 is, over the extended reals, that output. -/
theorem narrowed_hidden : (StableHlo.after hostOps1_2 Vin (Proc.devRef .tc main_v49) : S50000x256.Idx → EReal) = Vin (Proc.devRef .tc main_v48) := by
  after_results; rfl

/-- The second layer's weights narrowed to bf16 are, over the extended reals, the weights. -/
theorem narrowed_weights2 : (StableHlo.after hostOps1_2 Vin (Proc.devRef .tc main_v50) : S256x256.Idx → EReal) = Vin (Proc.devRef .tc main_arg5) := by
  after_results; rfl

/-! ## After the second call -/

/-- The second layer ends with the maximum of its aggregate and zero, entry by entry. -/
theorem relu_second : StableHlo.after hostOps2_1 Vin (Proc.devRef .tc main_v90)
    = maximumf (Vin (Proc.devRef .tc main_v89) : FVec Ideal S50000x256 .f32) zeroTable := by
  after_results; rfl

/-- The head: fed the reference's second layer output, the sum of its rows per graph, times the head's weights, plus the
    head's bias, is the reference's result. -/
theorem head (x0 : FVec Ideal S50000x256 .f32) (x1 : IVec S2x800000 32) (x2 : IVec S50000 32) (x3 : FVec Ideal S256x256 .f32)
    (x4 : FVec Ideal S256 .f32) (x5 : FVec Ideal S256x256 .f32) (x6 : FVec Ideal S256 .f32) (x7 : FVec Ideal S256x1 .f32) (x8 : FVec Ideal S1 .f32)
    (h90 : Vin (Proc.devRef .tc main_v90) = val_main_v86 (F := Ideal) x0 x1 x3 x4 x5 x6)
    (hg : Vin (Proc.devRef .tc main_arg2) = x2) (hw : Vin (Proc.devRef .tc main_arg7) = x7) (ho : Vin (Proc.devRef .tc main_arg8) = x8) :
    StableHlo.after hostOps2_2 Vin (Proc.devRef .tc main_v97) = val_main_v93 (F := Ideal) x0 x1 x2 x3 x4 x5 x6 x7 x8 := by
  after_results
  rw [h90, hg, hw, ho]
  rfl

end Cert.KernelIdeal.HostStretches

end
-- ==== Proof.AggregateFirst.lean ====
/-
  The first layer's aggregation in the kernel program is the reference's.

  Fed the reference's senders and receivers and the reference's first matrix product where it reads the first pallas
  call's result, the kernel program's forty-eight host operations between that call and the first maximum with zero —
  degrees, rsqrt(max(deg, 1e-12)) at both ends of every edge, the product's rows gathered at the senders and scaled,
  their scatter-add at the receivers, the bias — are, one for one, the reference's operations with the same operands.
-/
import proofs.«108624_j10557029614292_1_alg».proof.Proof.Gen.KernelIdeal.Launch
import proofs.«108624_j10557029614292_1_alg».proof.Proof.Gen.ReferenceIdeal.Read
import Idealize.ShloMosaic.Lib.StableHlo.Run

set_option maxRecDepth 16384

noncomputable section

namespace Cert.KernelIdeal.HostStretches

open Cert.KernelIdeal Cert.KernelIdeal.Gen Idealize.ShloMosaic Idealize.ShloMosaic.TcCoe Idealize.SL.Sem Idealize.ShloMosaic.StableHlo
open Cert.ReferenceIdeal.Read (val_main_v3 val_main_v6 val_main_v29 val_main_v45)

set_option maxHeartbeats 2000000 in
theorem aggregate_first (Vin : Valuation τ sig (Elt Ideal))
    (x0 : FVec Ideal S50000x256 .f32) (x1 : IVec S2x800000 32) (x3 : FVec Ideal S256x256 .f32) (x4 : FVec Ideal S256 .f32)
    (h3 : Vin (Proc.devRef .tc main_v3) = val_main_v3 (F := Ideal) x1) (h6 : Vin (Proc.devRef .tc main_v6) = val_main_v6 (F := Ideal) x1)
    (h9 : Vin (Proc.devRef .tc main_v9) = val_main_v29 (F := Ideal) x0 x3) (h4 : Vin (Proc.devRef .tc main_arg4) = x4) :
    StableHlo.after hostOps1 Vin (Proc.devRef .tc main_v47) = val_main_v45 (F := Ideal) x0 x1 x3 x4 := by
  after_results_simp
  rw [h3, h6, h9, h4]
  rfl

end Cert.KernelIdeal.HostStretches

end
-- ==== Proof.AggregateSecond.lean ====
/-
  The second layer's aggregation in the kernel program is the reference's.

  The same forty-eight operations as in the first layer, now after the second pallas call: fed the reference's senders
  and receivers and the reference's second matrix product where it reads that call's result, they produce the
  reference's second aggregate with the second bias added.
-/
import proofs.«108624_j10557029614292_1_alg».proof.Proof.Gen.KernelIdeal.Launch
import proofs.«108624_j10557029614292_1_alg».proof.Proof.Gen.ReferenceIdeal.Read
import Idealize.ShloMosaic.Lib.StableHlo.Run

set_option maxRecDepth 16384

noncomputable section

namespace Cert.KernelIdeal.HostStretches

open Cert.KernelIdeal Cert.KernelIdeal.Gen Idealize.ShloMosaic Idealize.ShloMosaic.TcCoe Idealize.SL.Sem Idealize.ShloMosaic.StableHlo
open Cert.ReferenceIdeal.Read (val_main_v3 val_main_v6 val_main_v69 val_main_v85)

set_option maxHeartbeats 2000000 in
theorem aggregate_second (Vin : Valuation τ sig (Elt Ideal))
    (x0 : FVec Ideal S50000x256 .f32) (x1 : IVec S2x800000 32) (x3 : FVec Ideal S256x256 .f32) (x4 : FVec Ideal S256 .f32)
    (x5 : FVec Ideal S256x256 .f32) (x6 : FVec Ideal S256 .f32)
    (h3 : Vin (Proc.devRef .tc main_v3) = val_main_v3 (F := Ideal) x1) (h6 : Vin (Proc.devRef .tc main_v6) = val_main_v6 (F := Ideal) x1)
    (h51 : Vin (Proc.devRef .tc main_v51) = val_main_v69 (F := Ideal) x0 x1 x3 x4 x5) (hb : Vin (Proc.devRef .tc main_arg6) = x6) :
    StableHlo.after hostOps2 Vin (Proc.devRef .tc main_v89) = val_main_v85 (F := Ideal) x0 x1 x3 x4 x5 x6 := by
  after_results_simp
  rw [h3, h6, h51, hb]
  rfl

end Cert.KernelIdeal.HostStretches

end
-- ==== Proof.Layers.lean ====
/-
  Each layer of the kernel program, from its pallas call's result to its output, is the reference's layer: the long
  aggregation followed by the maximum with zero.
-/
import proofs.«108624_j10557029614292_1_alg».proof.Proof.Stretches
import proofs.«108624_j10557029614292_1_alg».proof.Proof.AggregateFirst
import proofs.«108624_j10557029614292_1_alg».proof.Proof.AggregateSecond
import Idealize.ShloMosaic.Lib.StableHlo.Run

set_option maxRecDepth 16384

noncomputable section

namespace Cert.KernelIdeal.HostStretches

open Cert.KernelIdeal Cert.KernelIdeal.Gen Idealize.ShloMosaic Idealize.ShloMosaic.TcCoe Idealize.SL.Sem Idealize.ShloMosaic.StableHlo
open Cert.ReferenceIdeal.Read (val_main_v3 val_main_v6 val_main_v29 val_main_v46 val_main_v69 val_main_v86)

variable (Vin : Valuation τ sig (Elt Ideal))

/-- Fed the reference's senders, receivers and first product, the kernel program's first layer output is the reference's. -/
theorem first_layer (x0 : FVec Ideal S50000x256 .f32) (x1 : IVec S2x800000 32) (x3 : FVec Ideal S256x256 .f32) (x4 : FVec Ideal S256 .f32)
    (h3 : Vin (Proc.devRef .tc main_v3) = val_main_v3 (F := Ideal) x1) (h6 : Vin (Proc.devRef .tc main_v6) = val_main_v6 (F := Ideal) x1)
    (h9 : Vin (Proc.devRef .tc main_v9) = val_main_v29 (F := Ideal) x0 x3) (h4 : Vin (Proc.devRef .tc main_arg4) = x4) :
    StableHlo.after hostOps1_1 (StableHlo.after hostOps1 Vin) (Proc.devRef .tc main_v48) = val_main_v46 (F := Ideal) x0 x1 x3 x4 :=
  (relu_first (StableHlo.after hostOps1 Vin)).trans
    ((congrArg (fun h : FVec Ideal S50000x256 .f32 => maximumf h zeroTable) (aggregate_first Vin x0 x1 x3 x4 h3 h6 h9 h4)).trans rfl)

/-- Fed the reference's senders, receivers and second product, the kernel program's second layer output is the reference's. -/
theorem second_layer (x0 : FVec Ideal S50000x256 .f32) (x1 : IVec S2x800000 32) (x3 : FVec Ideal S256x256 .f32) (x4 : FVec Ideal S256 .f32)
    (x5 : FVec Ideal S256x256 .f32) (x6 : FVec Ideal S256 .f32)
    (h3 : Vin (Proc.devRef .tc main_v3) = val_main_v3 (F := Ideal) x1) (h6 : Vin (Proc.devRef .tc main_v6) = val_main_v6 (F := Ideal) x1)
    (h51 : Vin (Proc.devRef .tc main_v51) = val_main_v69 (F := Ideal) x0 x1 x3 x4 x5) (hb : Vin (Proc.devRef .tc main_arg6) = x6) :
    StableHlo.after hostOps2_1 (StableHlo.after hostOps2 Vin) (Proc.devRef .tc main_v90) = val_main_v86 (F := Ideal) x0 x1 x3 x4 x5 x6 :=
  (relu_second (StableHlo.after hostOps2 Vin)).trans
    ((congrArg (fun h : FVec Ideal S50000x256 .f32 => maximumf h zeroTable) (aggregate_second Vin x0 x1 x3 x4 x5 x6 h3 h6 h51 hb)).trans rfl)

end Cert.KernelIdeal.HostStretches

end
-- ==== Proof.Value.lean ====
/-
  The idealized kernel program's result is the reference's result term of the same arguments.

  Reading the program's last boundary back to its launch: before the first pallas call it forms the senders, the
  receivers and the operands of the first product; the call leaves the product of the node features with the first
  layer's weights, which is the reference's first matrix product (both are the sum over k < 256 of feature (n, k) ·
  weight (k, q)); the host operations between the calls turn it into the reference's first layer output; the second
  call leaves that output's product with the second layer's weights, the reference's second matrix product; and the
  host operations after it end at the reference's result. Buffers read late are followed back to where they were made.
-/
import proofs.«108624_j10557029614292_1_alg».proof.Proof.BlockProduct
import proofs.«108624_j10557029614292_1_alg».proof.Proof.Untouched
import proofs.«108624_j10557029614292_1_alg».proof.Proof.Layers

set_option maxRecDepth 16384

noncomputable section

namespace Cert.KernelIdeal.Result

open Cert.KernelIdeal Cert.KernelIdeal.Gen Idealize.ShloMosaic Idealize.ShloMosaic.TcCoe Idealize.SL.Sem
open Cert.ReferenceIdeal.Read (val_main_v3 val_main_v6 val_main_v29 val_main_v46 val_main_v69 val_main_v93)
open Cert.KernelIdeal.NodeProduct Cert.KernelIdeal.Untouched Cert.KernelIdeal.HostStretches

/-! ## A pallas call's product is the reference's matrix product -/

/-- Σ_k A (n, k) · B (k, q) is what the reference's contraction of `A`'s columns with `B`'s rows computes. -/
theorem times_eq_dot (A : S50000x256.Idx → EReal) (B : S256x256.Idx → EReal) :
    tableTimes A B = val_main_v29 (F := Ideal) A B := by
  funext i
  rw [Cert.ReferenceIdeal.Read.val_main_v29_apply]
  unfold tableTimes
  refine Finset.sum_congr rfl fun k _ => ?_
  have e1 : tableRow i k = Cert.ReferenceIdeal.Read.lidx_main_v29 i k := funext fun a => by
    match a with
    | ⟨0, _⟩ => rfl
    | ⟨1, _⟩ => rfl
  have e2 : tableCol i k = Cert.ReferenceIdeal.Read.ridx_main_v29 i k := funext fun a => by
    match a with
    | ⟨0, _⟩ => rfl
    | ⟨1, _⟩ => rfl
  rw [e1, e2]

/-- The reference's second matrix product is the same contraction, of the first layer's output with the second
    layer's weights. -/
theorem second_dot (x0 : FVec Ideal S50000x256 .f32) (x1 : IVec S2x800000 32) (x3 : FVec Ideal S256x256 .f32) (x4 : FVec Ideal S256 .f32) (x5 : FVec Ideal S256x256 .f32) :
    val_main_v69 (F := Ideal) x0 x1 x3 x4 x5 = val_main_v29 (F := Ideal) (val_main_v46 (F := Ideal) x0 x1 x3 x4) x5 := rfl

variable (m : (ℓ : Loc nD τ sig) → Buf (Elt Ideal) ℓ) (ρ : Dev nD → PrngReg) (c : Dev nD)

/-! ## From the launch to the first call's return -/

theorem senders_early : W2 m ρ c (Proc.devRef .tc main_v3) = val_main_v3 (F := Ideal) (m ((c : Thread nD τ).loc main_arg1)) :=
  (early_main_v3 m ρ c).trans (senders (W0 m ρ c))

theorem receivers_early : W2 m ρ c (Proc.devRef .tc main_v6) = val_main_v6 (F := Ideal) (m ((c : Thread nD τ).loc main_arg1)) :=
  (early_main_v6 m ρ c).trans (receivers (W0 m ρ c))

/-- The first call leaves the reference's first matrix product. -/
theorem first_product : W2 m ρ c (Proc.devRef .tc main_v9) = val_main_v29 (F := Ideal) (m ((c : Thread nD τ).loc main_arg0)) (m ((c : Thread nD τ).loc main_arg3)) :=
  (W2_arr m ρ c 2).trans ((product0 (V1 m ρ) c).trans
    ((congrArg₂ tableTimes (narrowed_features (W0 m ρ c)) (narrowed_weights1 (W0 m ρ c))).trans (times_eq_dot _ _)))

/-! ## Between the calls -/

/-- The first layer's output, as the reference computes it. -/
theorem hidden : W4 m ρ c (Proc.devRef .tc main_v48) = val_main_v46 (F := Ideal) (m ((c : Thread nD τ).loc main_arg0)) (m ((c : Thread nD τ).loc main_arg1)) (m ((c : Thread nD τ).loc main_arg3)) (m ((c : Thread nD τ).loc main_arg4)) :=
  first_layer (W2 m ρ c) (m ((c : Thread nD τ).loc main_arg0)) (m ((c : Thread nD τ).loc main_arg1)) (m ((c : Thread nD τ).loc main_arg3)) (m ((c : Thread nD τ).loc main_arg4))
    (senders_early m ρ c) (receivers_early m ρ c) (first_product m ρ c) (launch_main_arg4 m ρ c)

/-- The second call leaves the reference's second matrix product. -/
theorem second_product : W6 m ρ c (Proc.devRef .tc main_v51)
    = val_main_v69 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W6_arr m ρ c 2).trans ((product1 (V5 m ρ) c).trans
    ((congrArg₂ tableTimes ((narrowed_hidden (W4 m ρ c)).trans (hidden m ρ c))
        ((narrowed_weights2 (W4 m ρ c)).trans ((mid_main_arg5 m ρ c).trans (launch_main_arg5 m ρ c)))).trans
      ((times_eq_dot _ _).trans (second_dot _ _ _ _ _).symm)))

/-! ## After the second call -/

/-- The second layer's output, as the reference computes it. -/
theorem output : W8 m ρ c (Proc.devRef .tc main_v90)
    = Cert.ReferenceIdeal.Read.val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  second_layer (W6 m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
    ((late_main_v3 m ρ c).trans ((mid_main_v3 m ρ c).trans (senders_early m ρ c)))
    ((late_main_v6 m ρ c).trans ((mid_main_v6 m ρ c).trans (receivers_early m ρ c)))
    (second_product m ρ c)
    ((late_main_arg6 m ρ c).trans ((mid_main_arg6 m ρ c).trans (launch_main_arg6 m ρ c)))

/-- The program's result buffer ends at the reference's result term of the program's own arguments. -/
theorem result : W9 m ρ c (Proc.devRef .tc main_v97)
    = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  head (W8 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (output m ρ c) ((tail_main_arg2 m ρ c).trans ((late_main_arg2 m ρ c).trans ((mid_main_arg2 m ρ c).trans (launch_main_arg2 m ρ c))))
    ((tail_main_arg7 m ρ c).trans ((late_main_arg7 m ρ c).trans ((mid_main_arg7 m ρ c).trans (launch_main_arg7 m ρ c)))) ((tail_main_arg8 m ρ c).trans ((late_main_arg8 m ρ c).trans ((mid_main_arg8 m ρ c).trans (launch_main_arg8 m ρ c))))

end Cert.KernelIdeal.Result

end
-- ==== Proof.lean ====
/-
  A two-layer graph convolution with a per-graph sum and a linear head: the kernel program against its reference, over
  the extended reals.

  The two programs differ in one place only. The reference forms each layer's dense product (node features, then the
  first layer's output, times a 256 x 256 weight matrix) as one contraction on the host; the kernel program narrows the
  two operands to bf16 and forms the product in a pallas call, ten blocks of 5000 rows, each a matrix product
  accumulated from zero. Over the extended reals the narrowing is the identity and both products are, entry by entry,
  the sum over k < 256 of operand (n, k) · weight (k, q) (Proof/BlockProduct.lean, Proof/Value.lean). Everything else
  — degrees, normalisation weights, the gathers at the senders, the scatter-adds at the receivers, biases, maxima with
  zero, the per-graph sum and the head — is the same host operations on both sides (Proof/Stretches.lean), so the two
  results are the same function of the arguments, with no appeal to finiteness.

  The three frames: the two kernel programs' are generated whole; the reference's is its generated run with the result
  dropped. The idealization rewrote nothing, so its preservation claim is trivial.
-/
import proofs.«108624_j10557029614292_1_alg».proof.Defs
import proofs.«108624_j10557029614292_1_alg».proof.Proof.Gen.Kernel
import proofs.«108624_j10557029614292_1_alg».proof.Proof.Gen.Kernel.Skeleton
import proofs.«108624_j10557029614292_1_alg».proof.Proof.Gen.Kernel.Launch
import proofs.«108624_j10557029614292_1_alg».proof.Proof.Gen.Kernel.Points
import proofs.«108624_j10557029614292_1_alg».proof.Proof.Gen.Kernel.Frame
import proofs.«108624_j10557029614292_1_alg».proof.Proof.Gen.KernelIdeal
import proofs.«108624_j10557029614292_1_alg».proof.Proof.Gen.KernelIdeal.Skeleton
import proofs.«108624_j10557029614292_1_alg».proof.Proof.Gen.KernelIdeal.Launch
import proofs.«108624_j10557029614292_1_alg».proof.Proof.Gen.KernelIdeal.Points
import proofs.«108624_j10557029614292_1_alg».proof.Proof.Gen.KernelIdeal.Frame
import proofs.«108624_j10557029614292_1_alg».proof.Proof.Gen.ReferenceIdeal
import proofs.«108624_j10557029614292_1_alg».proof.Proof.Gen.Pre_finite_inputs
import proofs.«108624_j10557029614292_1_alg».proof.Proof.Gen.ReferenceIdeal.Run
import proofs.«108624_j10557029614292_1_alg».proof.Proof.Gen.ReferenceIdeal.Read
import proofs.«108624_j10557029614292_1_alg».proof.Proof.KernelRun
import proofs.«108624_j10557029614292_1_alg».proof.Proof.Value
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result term of the kernel program's arguments: the kernel program by its
    run read back to the launch, the reference by its generated run, its arguments being the kernel program's. -/
theorem algebraic : Cert.algebraic_KernelIdeal_ReferenceIdeal := by
  intro m ρ m' ρ' _ hagree
  refine ⟨fun c => Cert.ReferenceIdeal.Read.val_main_v93 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Result.result m ρ c), (h c).2⟩)
      (Cert.KernelIdeal.Whole.run (F := Ideal) m ρ)
  · refine (θ_run Cert.ReferenceIdeal.defs _ _).mono (fun _ h c => ⟨?_, (h c).2⟩)
      (Cert.ReferenceIdeal.Value.run (F := Ideal) m' ρ')
    refine (h c).1.trans ((Cert.ReferenceIdeal.Read.val_main_v93_eq m' c).trans ?_)
    obtain ⟨a0, a1, a2, a3, a4, a5, a6, a7, a8⟩ := hagree c
    rw [a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
